-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x500000x128 : Shape := ⟨3, ![4, 500000, 128]⟩
abbrev S_ : Shape := ⟨0, ![]⟩

class Facts : Prop where
  bcast_S_S4x500000x128 : S_.BroadcastsInDim S4x500000x128 (![] : Fin 0 → Fin S4x500000x128.rank)
  reducesTo_S4x500000x128_S_d0_1_2 : S4x500000x128.ReducesTo [0, 1, 2] S_
  h_S_ : 0 < S_.numel

variable [Facts]

def fn {F : FTy → Type} [FloatOps F] (main_arg0 : FVec F S4x500000x128 .f32) : IVec S_ 1 :=
  let main_v0 : FVec F S4x500000x128 .f32 := Host.absf main_arg0
  let main_cst : FVec F S_ .f32 := constant S_ .f32 0x7F800000#32
  let main_v1 : FVec F S4x500000x128 .f32 := broadcastInDim S4x500000x128 ![] bcast_S_S4x500000x128 main_cst
  let main_v2 : IVec S4x500000x128 1 := cmpf .olt main_v0 main_v1
  let main_c : IVec S_ 1 := constantI S_ 1 1#1
  let main_v3 : IVec S_ 1 := (fun x v => Host.reduce IntOp.andi x v reducesTo_S4x500000x128_S_d0_1_2 h_S_) main_v2 main_c
  main_v3
-- ==== Kernel.lean ====
abbrev S4x500000x128 : Shape := ⟨3, ![4, 500000, 128]⟩
abbrev S500000x512 : Shape := ⟨2, ![500000, 512]⟩
abbrev S1x10000x128 : Shape := ⟨3, ![1, 10000, 128]⟩
abbrev S10000x128 : Shape := ⟨2, ![10000, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x500000x128, .f32⟩
  | .hbm, ⟨1, _⟩ => ⟨S500000x512, .f32⟩
  | .local _ .vmem, ⟨0, _⟩ => ⟨S1x10000x128, .f32⟩
  | .local _ .vmem, ⟨1, _⟩ => ⟨S1x10000x128, .f32⟩
  | .local _ .vmem, ⟨2, _⟩ => ⟨S10000x128, .f32⟩
  | .local _ .vmem, ⟨3, _⟩ => ⟨S10000x128, .f32⟩
  | _, _ => ⟨S4x500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![50, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S10000x128_S10000x128_0_0 : ∀ a, (![0, 0] : Fin 2 → Nat) a + S10000x128.size a ≤ S10000x128.size a
  h_S10000x128 : 0 < S10000x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S4x500000x128.size a
  hwx0_0 : ∀ i : grid0.Coords, EltTy.bits .f32 = 32 ∨ (Rect.block (s := S4x500000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x512.size a
  hwx0_1 : ∀ i : grid0.Coords, EltTy.bits .f32 = 32 ∨ (Rect.block (s := S500000x512) S10000x128.size (cc0_transform_1 i) (hinb0_1 i)).WholeWords (EltTy.packing .f32)

variable [Facts₀]

abbrev win0_0 : Pipeline.Window sig grid0 :=
  Pipeline.Window.ofSpec (Memref.whole main_arg0) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x500000x128 : Shape := ⟨3, ![4, 500000, 128]⟩
abbrev S500000x4x128 : Shape := ⟨3, ![500000, 4, 128]⟩
abbrev S500000x512 : Shape := ⟨2, ![500000, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x500000x128, .f32⟩
  | .hbm, ⟨1, _⟩ => ⟨S500000x4x128, .f32⟩
  | .hbm, ⟨2, _⟩ => ⟨S500000x512, .f32⟩
  | _, _ => ⟨S4x500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  transposes_S4x500000x128_S500000x4x128_1_0_2 : S4x500000x128.Transposes [1, 0, 2] S500000x4x128
  shapeCasts_S500000x4x128_S500000x512 : S500000x4x128.ShapeCasts S500000x512

variable [Facts₀]

class Facts : Prop extends Facts₀ where

variable [Facts]
-- ==== Proof.HopConcat.lean ====
/-
  The specification: concatenating four per-hop message matrices along the feature axis.

  The input is M[k, n, d] with four hops k, 500000 nodes n and 128 features d. The result has one row per node,
  and row n is M[0, n, ·] followed by M[1, n, ·], M[2, n, ·] and M[3, n, ·]: column c of that row holds feature
  c mod 128 of hop c / 128,

      out[n, c] = M[c / 128, n, c mod 128].

  No arithmetic is done on the entries, so the function is stated for entries of any type.
-/
import Idealize.ShloMosaic.Lib.ValueIdx

namespace Cert.HopConcat

open Idealize.ShloMosaic Idealize.ShloMosaic.ValueIdx

/-- The entry of M that output entry (n, c) is a copy of: hop c / 128, node n, feature c mod 128. -/
abbrev source (i : (⟨2, ![500000, 512]⟩ : Shape).Idx) : (⟨3, ![4, 500000, 128]⟩ : Shape).Idx :=
  ix3 (⟨(i 1).val / 128, by have h : (i 1).val < 512 := (i 1).isLt; omega⟩ : Fin 4)
    (⟨(i 0).val, (i 0).isLt⟩ : Fin 500000)
    (⟨(i 1).val % 128, Nat.mod_lt _ (by decide)⟩ : Fin 128)

/-- The four hops side by side: out[n, c] = M[c / 128, n, c mod 128]. -/
def hopConcat {α : Type} (M : (⟨3, ![4, 500000, 128]⟩ : Shape).Idx → α) :
    (⟨2, ![500000, 512]⟩ : Shape).Idx → α :=
  fun i => M (source i)

theorem hopConcat_apply {α : Type} (M : (⟨3, ![4, 500000, 128]⟩ : Shape).Idx → α)
    (i : (⟨2, ![500000, 512]⟩ : Shape).Idx) : hopConcat M i = M (source i) := rfl

end Cert.HopConcat
-- ==== Proof.RefConcat.lean ====
/-
  The reference is the concatenation of the hops.

  The reference first swaps the hop and node axes, T[n, k, d] = M[k, n, d], and then reads T row-major as a
  matrix with 512 columns. Entry (n, c) of that matrix sits at flat position n * 512 + c of T, which is T's entry
  (n, c / 128, c mod 128) because c < 512 = 4 * 128. So it is M[c / 128, n, c mod 128].
-/
import proofs.«162973_j81819126988937_2_alg».proof.Proof.Gen.ReferenceIdeal.Read
import proofs.«162973_j81819126988937_2_alg».proof.Proof.HopConcat

noncomputable section

namespace Cert.ReferenceIdeal.RefValue

open Cert.ReferenceIdeal Cert.ReferenceIdeal.Gen Idealize.ShloMosaic Idealize.ShloMosaic.TcCoe
open Cert.HopConcat

variable {F : FTy → Type} [FloatOps F]

/-- Reading the swapped array row-major with 512 columns gives, at (n, c), the entry M[c / 128, n, c mod 128]. -/
theorem result_eq (x0 : (⟨S4x500000x128, .f32⟩ : BufTy).Contents (Elt F)) :
    Read.val_main_v1 (F := F) x0 = hopConcat x0 := by
  funext i
  have h0 : (i 0).val < 500000 := (i 0).isLt
  have h1 : (i 1).val < 512 := (i 1).isLt
  rw [Read.val_main_v1_apply, Read.val_main_v0_apply, hopConcat_apply]
  refine congrArg x0 ?_
  funext a
  apply Fin.ext
  match a with
  | ⟨0, _⟩ => show ((i 0).val * 512 + (i 1).val) / 128 % 4 = (i 1).val / 128; omega
  | ⟨1, _⟩ => show ((i 0).val * 512 + (i 1).val) / 512 = (i 0).val; omega
  | ⟨2, _⟩ => show ((i 0).val * 512 + (i 1).val) % 128 = (i 1).val % 128; omega

end Cert.ReferenceIdeal.RefValue

end
-- ==== Proof.KernelConcat.lean ====
/-
  What the kernel leaves in its result array: the concatenation of the hops.

  The grid has 50 x 4 points (i, k). At point (i, k) the kernel loads the block M[k, 10000 i .. 10000 i + 9999, ·]
  (one hop, ten thousand nodes, all 128 features), drops the unit hop axis, and stores it unchanged as the block of
  the result at rows 10000 i .. 10000 i + 9999 and columns 128 k .. 128 k + 127. Entry (r, l) of that block is
  therefore M[k, 10000 i + r, l], and its place in the result is (n, c) = (10000 i + r, 128 k + l), for which
  c / 128 = k and c mod 128 = l: the block is the block of out[n, c] = M[c / 128, n, c mod 128].
  The 200 blocks tile the result (row n lies in row block n / 10000, column c in column block c / 128), so the whole
  result array is that function.
-/
import proofs.«162973_j81819126988937_2_alg».proof.Proof.Gen.KernelIdeal.Value
import proofs.«162973_j81819126988937_2_alg».proof.Proof.HopConcat

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Cert.HopConcat

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- The body stores what it loaded with the unit hop axis dropped: entry (r, l) of the stored block is entry
    (0, r, l) of the loaded one. -/
theorem stored_apply (x0 : Vec F S1x10000x128 .f32) (y : S10000x128.Idx) :
    out0_1 x0 y = x0 (Value.ix1_0 y) := by
  unfold out0_1
  rw [Value.canon1_eq]
  show View.ld x0 r0_0 (Value.ix1_0 y) = _
  rw [View.ld_unit_zero (S := S1x10000x128) zero3]

/-- At every grid point the input block's hop index is the output block's column index, its node-block index the
    output block's row index, its feature index zero; and the output's block indices stay below 50 and 4. -/
theorem block_index : ∀ t : Fin cfg0.N,
    win0_0.index t (0 : Fin 3) = win0_1.index t (1 : Fin 2)
    ∧ win0_0.index t (1 : Fin 3) = win0_1.index t (0 : Fin 2)
    ∧ win0_0.index t (2 : Fin 3) = 0
    ∧ win0_1.index t (0 : Fin 2) ≤ 49 ∧ win0_1.index t (1 : Fin 2) ≤ 3 :=
  (by decide +kernel : ∀ t : Fin grid0.N, _)

/-- Every block of the 50 x 4 tiling of the result is some grid point's. -/
theorem block_onto : ∀ (q0 : Fin 50) (q1 : Fin 4), ∃ t : Fin cfg0.N, win0_1.index t = ![q0.val, q1.val] :=
  (by decide +kernel : ∀ (q0 : Fin 50) (q1 : Fin 4), ∃ t : Fin grid0.N, win0_1.index t = ![q0.val, q1.val])

/-- What grid point t writes back is its block of the concatenation of the hops of M. -/
theorem written_back (c : Dev nD) (t : Fin cfg0.N) :
    (dats m 0 c).flushed 1 t = ((cfg0.win 1).blk t).view.read (Elt F) (hopConcat (V m c main_arg0)) := by
  rw [Value.flushed1]
  obtain ⟨e0, e1, e2, e3, e4⟩ := block_index t
  funext j
  have hj0 : (j 0).val < 10000 := (j 0).isLt
  have hj1 : (j 1).val < 128 := (j 1).isLt
  show out0_1 (iblk m c 0 t) j = V m c main_arg0 (source (((cfg0.win 1).blk t).view.emb j))
  refine (stored_apply (iblk m c 0 t) j).trans ?_
  show V m c main_arg0 (((cfg0.win 0).blk t).view.emb (Value.ix1_0 j)) = _
  refine congrArg (V m c main_arg0) ?_
  funext a
  apply Fin.ext
  match a with
  | ⟨0, _⟩ =>
    show win0_0.index t (0 : Fin 3) * 1 + 1 * 0 = (win0_1.index t (1 : Fin 2) * 128 + 1 * (j 1).val) / 128
    omega
  | ⟨1, _⟩ =>
    show win0_0.index t (1 : Fin 3) * 10000 + 1 * (j 0).val = win0_1.index t (0 : Fin 2) * 10000 + 1 * (j 0).val
    omega
  | ⟨2, _⟩ =>
    show win0_0.index t (2 : Fin 3) * 128 + 1 * (j 1).val = (win0_1.index t (1 : Fin 2) * 128 + 1 * (j 1).val) % 128
    omega

/-- An entry of the result lies in grid point t's block exactly when each coordinate lies in the block's range. -/
theorem mem_block (t : Fin cfg0.N) (i : S500000x512.Idx) :
    i ∈ ((cfg0.win 1).blk t).view.set ↔ ∀ a : Fin 2, win0_1.index t a * S10000x128.size a ≤ (i a).val
      ∧ (i a).val < win0_1.index t a * S10000x128.size a + S10000x128.size a := by
  show i ∈ ((View.whole main_v0).slice (win0_1.rect t)).set ↔ _
  rw [View.set_slice_whole, Rect.mem_set_unit]
  exact Iff.rfl

/-- The blocks tile the result: entry (n, c) lies in the block with row index n / 10000 and column index c / 128. -/
theorem covered (i : S500000x512.Idx) :
    ∃ t : Fin cfg0.N, (cfg0.win 1).flush t = true ∧ i ∈ ((cfg0.win 1).blk t).view.set := by
  have hi0 : (i 0).val < 500000 := (i 0).isLt
  have hi1 : (i 1).val < 512 := (i 1).isLt
  obtain ⟨t, ht⟩ := block_onto ⟨(i 0).val / 10000, by omega⟩ ⟨(i 1).val / 128, by omega⟩
  have q0 : win0_1.index t (0 : Fin 2) = (i 0).val / 10000 := congrFun ht 0
  have q1 : win0_1.index t (1 : Fin 2) = (i 1).val / 128 := congrFun ht 1
  refine ⟨t, flush0_1 t, ?_⟩
  rw [mem_block]
  intro a
  match a with
  | ⟨0, _⟩ =>
    show win0_1.index t (0 : Fin 2) * 10000 ≤ (i 0).val ∧ (i 0).val < win0_1.index t (0 : Fin 2) * 10000 + 10000
    omega
  | ⟨1, _⟩ =>
    show win0_1.index t (1 : Fin 2) * 128 ≤ (i 1).val ∧ (i 1).val < win0_1.index t (1 : Fin 2) * 128 + 128
    omega

/-- After the run the result array is the concatenation of the hops of the argument array. -/
theorem result_array (c : Dev nD) :
    (dats m 0 c).arrAt 1 cfg0.N = hopConcat (m ((c : Thread nD τ).loc main_arg0)) :=
  (dats m 0 c).arrAt_eq_of_cover 1 (hopConcat (V m c main_arg0)) (fun t _ => written_back m c t) covered

/-- Every weakly fair execution of the kernel ends with the result array at the concatenation of the hops of the
    argument array, and the argument array unchanged. -/
theorem run : θ_run defs (onTc (τ := τ) (main (F := F))) ⟨m, fun _ => 0, ρ⟩ fun r => ∀ c : Dev nD,
      r.2.mem ((c : Thread nD τ).loc main_v0) = hopConcat (m ((c : Thread nD τ).loc main_arg0))
      ∧ r.2.mem ((c : Thread nD τ).loc main_arg0) = m ((c : Thread nD τ).loc main_arg0) :=
  (θ_run defs _ _).mono (fun r h c => ⟨(h c).1.trans (result_array m c), (h c).2⟩) (Value.run_blocks m ρ)

end Cert.KernelIdeal.KernelValue

end
-- ==== Proof.lean ====
/-
  Concatenating four per-hop message matrices along the feature axis: the kernel against its reference.

  The input is M[k, n, d] with 4 hops, 500000 nodes and 128 features; both programs produce the 500000 x 512
  matrix whose row n is M[0, n, ·], M[1, n, ·], M[2, n, ·], M[3, n, ·] side by side,

      out[n, c] = M[c / 128, n, c mod 128].

  The kernel copies, at each of its 50 x 4 grid points (i, k), the block of hop k and nodes 10000 i .. 10000 i + 9999
  to rows 10000 i .. and columns 128 k .. 128 k + 127 of the result; the blocks tile the result. The reference swaps
  the hop and node axes and reads the swapped array row-major with 512 columns. Neither does any arithmetic on the
  entries, so the two results agree entry by entry for every input, finite or not: the precondition is not used, and
  nothing was rewritten in idealizing the kernel.
-/
import proofs.«162973_j81819126988937_2_alg».proof.Defs
import proofs.«162973_j81819126988937_2_alg».proof.Proof.Gen.Kernel
import proofs.«162973_j81819126988937_2_alg».proof.Proof.Gen.Kernel.Skeleton
import proofs.«162973_j81819126988937_2_alg».proof.Proof.Gen.Kernel.Launch
import proofs.«162973_j81819126988937_2_alg».proof.Proof.Gen.Kernel.Points
import proofs.«162973_j81819126988937_2_alg».proof.Proof.Gen.Kernel.Frame
import proofs.«162973_j81819126988937_2_alg».proof.Proof.Gen.KernelIdeal
import proofs.«162973_j81819126988937_2_alg».proof.Proof.Gen.KernelIdeal.Skeleton
import proofs.«162973_j81819126988937_2_alg».proof.Proof.Gen.KernelIdeal.Launch
import proofs.«162973_j81819126988937_2_alg».proof.Proof.Gen.KernelIdeal.Points
import proofs.«162973_j81819126988937_2_alg».proof.Proof.Gen.KernelIdeal.Frame
import proofs.«162973_j81819126988937_2_alg».proof.Proof.Gen.ReferenceIdeal
import proofs.«162973_j81819126988937_2_alg».proof.Proof.Gen.KernelIdeal.Value
import proofs.«162973_j81819126988937_2_alg».proof.Proof.Gen.ReferenceIdeal.Run
import proofs.«162973_j81819126988937_2_alg».proof.Proof.Gen.ReferenceIdeal.Read
import proofs.«162973_j81819126988937_2_alg».proof.Proof.Gen.Pre_finite_inputs
import proofs.«162973_j81819126988937_2_alg».proof.Proof.HopConcat
import proofs.«162973_j81819126988937_2_alg».proof.Proof.RefConcat
import proofs.«162973_j81819126988937_2_alg».proof.Proof.KernelConcat
import Idealize.ShloMosaic.Adequacy
import Idealize.ShloMosaic.Init

noncomputable section

namespace Cert.Proof

open Idealize.ShloMosaic Idealize.SL.Sem Cert.Kernel

/-- The kernel as printed runs to the end without a fault and leaves M as it was. -/
theorem frame_kernel [Cert.Kernel.Facts] [Cert.Pre_finite_inputs.Facts] : Cert.frame_Kernel :=
  fun m ρ _ => Cert.Kernel.Gen.frame m ρ

/-- So does the kernel read over the extended reals. -/
theorem frame_kernel_ideal [Cert.KernelIdeal.Facts] [Cert.Pre_finite_inputs.Facts] : Cert.frame_KernelIdeal :=
  fun m ρ _ => Cert.KernelIdeal.Gen.frame m ρ

/-- The reference runs to the end and leaves M as it was: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with out[n, c] = M[c / 128, n, c mod 128] of the same M. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
